-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S640000 32) (main_arg2 : IVec S640000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S100000x128, .f32⟩
  | .hbm, ⟨47, _⟩ => ⟨S640000x1, .i32⟩
  | .hbm, ⟨48, _⟩ => ⟨S100000x128, .f32⟩
  | .hbm, ⟨49, _⟩ => ⟨S_, .f32⟩
  | .hbm, ⟨50, _⟩ => ⟨S640000, .f32⟩
  | .hbm, ⟨51, _⟩ => ⟨S_, .f32⟩
  | .hbm, ⟨52, _⟩ => ⟨S100000, .f32⟩
  | .hbm, ⟨53, _⟩ => ⟨S640000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S100000x128, .f32⟩
  | .hbm, ⟨54, _⟩ => ⟨S640000x1, .i32⟩
  | .hbm, ⟨55, _⟩ => ⟨S100000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S100000, .f32⟩
  | .hbm, ⟨60, _⟩ => ⟨S640000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result array named.

  The program is four stretches in a row: host operations, the first dense layer (a grid of 20 row blocks),
  host operations again, the second dense layer (20 row blocks).  The buffer contents at each boundary are a fold
  from the launch memory (`Gen.W1 … Gen.W4`).  Here the run is stated with every result the claim needs: the final
  array `main_v41` is what the fold leaves there (`Gen.W4`), and the nine argument arrays are as launched.
-/
import proofs.«169342_j54185307406416_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of `main_v41`, and every argument array ends as it was launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.Spec.lean ====
/-
  What one dense layer computes, entry by entry, on the extended reals.

  Row `r`, column `q` of  h · Wₛ + hₙ · Wₙ + b :  the row of the node's own features against a column of the self
  weights, plus the row of its neighbours' mean against a column of the neighbour weights, plus the bias of that
  column (the bias is a 1 × columns matrix).  The first layer clamps the sum below at the value of the f32 word zero;
  the second layer does not.
-/
import Idealize.ShloMosaic.PureOps.Ideal
import Idealize.ShloMosaic.Lib.ValueIdx

noncomputable section

namespace Cert.Sage

open Idealize.ShloMosaic Idealize.ShloMosaic.ValueIdx

/-- Entry (r, q) of the affine map into 128 columns. -/
def affine128 (h hn : (⟨2, ![100000, 128]⟩ : Shape).Idx → EReal) (ws wn : (⟨2, ![128, 128]⟩ : Shape).Idx → EReal)
    (b : (⟨2, ![1, 128]⟩ : Shape).Idx → EReal) (r : Fin 100000) (q : Fin 128) : EReal :=
  (∑ k : Fin 128, h (ix2 r k) * ws (ix2 k q)) + (∑ k : Fin 128, hn (ix2 r k) * wn (ix2 k q)) + b (ix2 (0 : Fin 1) q)

/-- Entry (r, q) of the affine map into 64 columns. -/
def affine64 (h hn : (⟨2, ![100000, 128]⟩ : Shape).Idx → EReal) (ws wn : (⟨2, ![128, 64]⟩ : Shape).Idx → EReal)
    (b : (⟨2, ![1, 64]⟩ : Shape).Idx → EReal) (r : Fin 100000) (q : Fin 64) : EReal :=
  (∑ k : Fin 128, h (ix2 r k) * ws (ix2 k q)) + (∑ k : Fin 128, hn (ix2 r k) * wn (ix2 k q)) + b (ix2 (0 : Fin 1) q)

/-- The first layer's whole result: the affine map clamped below at zero's word. -/
def layer1 (h hn : (⟨2, ![100000, 128]⟩ : Shape).Idx → EReal) (ws wn : (⟨2, ![128, 128]⟩ : Shape).Idx → EReal)
    (b : (⟨2, ![1, 128]⟩ : Shape).Idx → EReal) : (⟨2, ![100000, 128]⟩ : Shape).Idx → EReal :=
  fun i => max (affine128 h hn ws wn b (i 0) (i 1)) (Ideal.ofBits .f32 0x00000000#32)

/-- The second layer's whole result: the affine map. -/
def layer2 (h hn : (⟨2, ![100000, 128]⟩ : Shape).Idx → EReal) (ws wn : (⟨2, ![128, 64]⟩ : Shape).Idx → EReal)
    (b : (⟨2, ![1, 64]⟩ : Shape).Idx → EReal) : (⟨2, ![100000, 64]⟩ : Shape).Idx → EReal :=
  fun i => affine64 h hn ws wn b (i 0) (i 1)

end Cert.Sage

end
-- ==== Proof.Payload.lean ====
/-
  What each dense-layer body stores, entry by entry.

  A body loads a block of 5000 rows of the features `x0`, the same rows of the neighbour means `x1`, the two weight
  matrices `x2`, `x3` whole, and the 1 × columns bias `x4`.  On the extended reals the narrowing of the operands to
  bf16 changes nothing, a matrix product into the zero accumulator is the plain sum of products over the 128
  contracted coordinates, and the broadcast of the bias row reads the bias of the entry's column.  So the stored
  entry (p, q) is  Σₖ x0[p,k]·x2[k,q] + Σₖ x1[p,k]·x3[k,q] + x4[0,q],  clamped below at zero's word in the first layer.
-/
import proofs.«169342_j54185307406416_1_alg».proof.Proof.Gen.KernelIdeal.Skeleton
import proofs.«169342_j54185307406416_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The first layer's product: 5000 × 128 by 128 × 128. -/
abbrev D128 := dot_S5000x128_S128x128_S5000x128_1_0_0_1_n_n
/-- The second layer's product: 5000 × 128 by 128 × 64. -/
abbrev D64 := dot_S5000x128_S128x64_S5000x64_1_0_0_1_n_n

/-- Output row of the left operand: a row coordinate of the product is the left operand's row. -/
theorem lhs128_0 (i : S5000x128.Idx) (q : D128.contr.Idx) : (D128.lhsIdx i q 0).val = (i 0).val := by
  unfold DotDims.lhsIdx
  rw [dif_neg (show ¬(0 : Fin S5000x128.rank) ∈ D128.lhsBatch by decide), dif_pos (show (0 : Fin S5000x128.rank) ∈ D128.lhsNonContracting by decide)]
  rfl
theorem lhs128_1 (i : S5000x128.Idx) (q : D128.contr.Idx) : (D128.lhsIdx i q 1).val = (q ⟨0, by decide⟩).val :=
  D128.lhsIdx_val_of_single rfl i q
theorem rhs128_0 (i : S5000x128.Idx) (q : D128.contr.Idx) : (D128.rhsIdx i q 0).val = (q ⟨0, by decide⟩).val :=
  D128.rhsIdx_val_of_single rfl i q
theorem rhs128_1 (i : S5000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- A matrix product into the zero accumulator, at entry (p, q): the sum over the 128 contracted coordinates of the
    left operand's row `p` against the right operand's column `q`. -/
theorem mm128 (l : FVec Ideal S5000x128 .bf16) (r : FVec Ideal S128x128 .bf16) (p : Fin 5000) (q : Fin 128) :
    matmul D128 none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((contrEquiv1 D128 128 rfl rfl).symm k) = ix2 k q := funext fun a => Fin.ext (by
    match a with
    | ⟨0, _⟩ => exact (rhs128_0 _ _).trans hk
    | ⟨1, _⟩ => exact rhs128_1 _ _)
  rw [el, er]

/-- Output row of the left operand: a row coordinate of the product is the left operand's row. -/
theorem lhs64_0 (i : S5000x64.Idx) (q : D64.contr.Idx) : (D64.lhsIdx i q 0).val = (i 0).val := by
  unfold DotDims.lhsIdx
  rw [dif_neg (show ¬(0 : Fin S5000x128.rank) ∈ D64.lhsBatch by decide), dif_pos (show (0 : Fin S5000x128.rank) ∈ D64.lhsNonContracting by decide)]
  rfl
theorem lhs64_1 (i : S5000x64.Idx) (q : D64.contr.Idx) : (D64.lhsIdx i q 1).val = (q ⟨0, by decide⟩).val :=
  D64.lhsIdx_val_of_single rfl i q
theorem rhs64_0 (i : S5000x64.Idx) (q : D64.contr.Idx) : (D64.rhsIdx i q 0).val = (q ⟨0, by decide⟩).val :=
  D64.rhsIdx_val_of_single rfl i q
theorem rhs64_1 (i : S5000x64.Idx) (q : D64.contr.Idx) : (D64.rhsIdx i q 1).val = (i 1).val := by
  unfold DotDims.rhsIdx
  rw [dif_neg (show ¬(1 : Fin S128x64.rank) ∈ D64.rhsBatch by decide), dif_pos (show (1 : Fin S128x64.rank) ∈ D64.rhsNonContracting by decide)]
  rfl

/-- A matrix product into the zero accumulator, at entry (p, q): the sum over the 128 contracted coordinates of the
    left operand's row `p` against the right operand's column `q`. -/
theorem mm64 (l : FVec Ideal S5000x128 .bf16) (r : FVec Ideal S128x64 .bf16) (p : Fin 5000) (q : Fin 64) :
    matmul D64 none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 D64 128 rfl rfl).symm]
  refine Finset.sum_congr rfl fun k _ => ?_
  have hk := contrEquiv1_symm_val D64 128 rfl rfl k
  have el : D64.lhsIdx (ix2 p q) ((contrEquiv1 D64 128 rfl rfl).symm k) = ix2 p k := funext fun a => Fin.ext (by
    match a with
    | ⟨0, _⟩ => exact lhs64_0 _ _
    | ⟨1, _⟩ => exact (lhs64_1 _ _).trans hk)
  have er : D64.rhsIdx (ix2 p q) ((contrEquiv1 D64 128 rfl rfl).symm k) = ix2 k q := funext fun a => Fin.ext (by
    match a with
    | ⟨0, _⟩ => exact (rhs64_0 _ _).trans hk
    | ⟨1, _⟩ => exact rhs64_1 _ _)
  rw [el, er]

/-- The bias row broadcast over the block's rows reads, at (p, q), the bias of column `q` (128 columns). -/
theorem bias128 (x4 : Vec Ideal S1x128 .f32) (p : Fin 5000) (q : Fin 128) :
    broadcastTo S5000x128 (shapeCast S1x128 x4 shapeCasts_S1x128_S1x128) broadcasts_S1x128_S5000x128 (ix2 p q)
      = x4 (ix2 (0 : Fin 1) q) := by
  rw [shapeCast_self]
  refine broadcastTo_apply x4 broadcasts_S1x128_S5000x128 (ix2 p q) (ix2 (0 : Fin 1) q) fun a => ?_
  match a with
  | ⟨0, _⟩ => show 0 = if (1 : Nat) = 1 then 0 else _; rw [if_pos rfl]
  | ⟨1, _⟩ => show q.val = if (128 : Nat) = 1 then 0 else q.val; rw [if_neg (by decide)]

/-- The same for 64 columns. -/
theorem bias64 (x4 : Vec Ideal S1x64 .f32) (p : Fin 5000) (q : Fin 64) :
    broadcastTo S5000x64 (shapeCast S1x64 x4 shapeCasts_S1x64_S1x64) broadcasts_S1x64_S5000x64 (ix2 p q)
      = x4 (ix2 (0 : Fin 1) q) := by
  rw [shapeCast_self]
  refine broadcastTo_apply x4 broadcasts_S1x64_S5000x64 (ix2 p q) (ix2 (0 : Fin 1) q) fun a => ?_
  match a with
  | ⟨0, _⟩ => show 0 = if (1 : Nat) = 1 then 0 else _; rw [if_pos rfl]
  | ⟨1, _⟩ => show q.val = if (64 : Nat) = 1 then 0 else q.val; rw [if_neg (by decide)]

/-- The first layer's stored block at (p, q). -/
theorem pay0_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k0_pay1
  rw [shapeCast_self]
  show max ((matmul D128 none (truncf .bf16 x0 bitsLt_bf16_f32) (truncf .bf16 x2 bitsLt_bf16_f32) (constant (F := Ideal) S5000x128 .f32 0x00000000#32) (ix2 p q)
        + matmul D128 none (truncf .bf16 x1 bitsLt_bf16_f32) (truncf .bf16 x3 bitsLt_bf16_f32) (constant (F := Ideal) S5000x128 .f32 0x00000000#32) (ix2 p q))
        + broadcastTo S5000x128 (shapeCast S1x128 x4 shapeCasts_S1x128_S1x128) broadcasts_S1x128_S5000x128 (ix2 p q))
      (Ideal.ofBits .f32 0x00000000#32) = _
  rw [mm128, mm128, bias128]
  rfl

/-- The second layer's stored block at (p, q). -/
theorem pay1_apply (x0 x1 : Vec Ideal S5000x128 .f32) (x2 x3 : Vec Ideal S128x64 .f32) (x4 : Vec Ideal S1x64 .f32)
    (p : Fin 5000) (q : Fin 64) :
    k1_pay1 x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k1_pay1
  rw [shapeCast_self, shapeCast_self]
  show (matmul D64 none (truncf .bf16 x0 bitsLt_bf16_f32) (truncf .bf16 x2 bitsLt_bf16_f32) (constant (F := Ideal) S5000x64 .f32 0x00000000#32) (ix2 p q)
        + matmul D64 none (truncf .bf16 x1 bitsLt_bf16_f32) (truncf .bf16 x3 bitsLt_bf16_f32) (constant (F := Ideal) S5000x64 .f32 0x00000000#32) (ix2 p q))
        + broadcastTo S5000x64 (shapeCast S1x64 x4 shapeCasts_S1x64_S1x64) broadcasts_S1x64_S5000x64 (ix2 p q) = _
  rw [mm64, mm64, bias64]
  rfl

/-- The first layer's stored entry (p, q) is the layer function's entry (r, q) of any arrays that agree with the loaded
    blocks on what the entry reads: row `p` of the two row blocks against row `r` of the arrays, column `q` of the
    weights, the bias of column `q`. -/
theorem block_eq0 (x0 x1 : Vec Ideal S5000x128 .f32) (x2 x3 : Vec Ideal S128x128 .f32) (x4 : Vec Ideal S1x128 .f32)
    (a0 a1 : (⟨2, ![100000, 128]⟩ : Shape).Idx → EReal) (a2 a3 : (⟨2, ![128, 128]⟩ : Shape).Idx → EReal)
    (a4 : (⟨2, ![1, 128]⟩ : Shape).Idx → EReal) (r : Fin 100000) (p : Fin 5000) (q : Fin 128)
    (h0 : ∀ k : Fin 128, x0 (ix2 p k) = a0 (ix2 r k)) (h1 : ∀ k : Fin 128, x1 (ix2 p k) = a1 (ix2 r k))
    (h2 : ∀ k : Fin 128, x2 (ix2 k q) = a2 (ix2 k q)) (h3 : ∀ k : Fin 128, x3 (ix2 k q) = a3 (ix2 k q))
    (h4 : x4 (ix2 (0 : Fin 1) q) = a4 (ix2 (0 : Fin 1) q)) :
    k0_pay1 x0 x1 x2 x3 x4 (ix2 p q) = Cert.Sage.layer1 a0 a1 a2 a3 a4 (ix2 r q) := by
  have s0 : (∑ k : Fin 128, x0 (ix2 p k) * x2 (ix2 k q)) = ∑ k : Fin 128, a0 (ix2 r k) * a2 (ix2 k q) :=
    Finset.sum_congr rfl fun k _ => by rw [h0 k, h2 k]
  have s1 : (∑ k : Fin 128, x1 (ix2 p k) * x3 (ix2 k q)) = ∑ k : Fin 128, a1 (ix2 r k) * a3 (ix2 k q) :=
    Finset.sum_congr rfl fun k _ => by rw [h1 k, h3 k]
  rw [pay0_apply, s0, s1, h4]
  rfl

/-- The same for the second layer. -/
theorem block_eq1 (x0 x1 : Vec Ideal S5000x128 .f32) (x2 x3 : Vec Ideal S128x64 .f32) (x4 : Vec Ideal S1x64 .f32)
    (a0 a1 : (⟨2, ![100000, 128]⟩ : Shape).Idx → EReal) (a2 a3 : (⟨2, ![128, 64]⟩ : Shape).Idx → EReal)
    (a4 : (⟨2, ![1, 64]⟩ : Shape).Idx → EReal) (r : Fin 100000) (p : Fin 5000) (q : Fin 64)
    (h0 : ∀ k : Fin 128, x0 (ix2 p k) = a0 (ix2 r k)) (h1 : ∀ k : Fin 128, x1 (ix2 p k) = a1 (ix2 r k))
    (h2 : ∀ k : Fin 128, x2 (ix2 k q) = a2 (ix2 k q)) (h3 : ∀ k : Fin 128, x3 (ix2 k q) = a3 (ix2 k q))
    (h4 : x4 (ix2 (0 : Fin 1) q) = a4 (ix2 (0 : Fin 1) q)) :
    k1_pay1 x0 x1 x2 x3 x4 (ix2 p q) = Cert.Sage.layer2 a0 a1 a2 a3 a4 (ix2 r q) := by
  have s0 : (∑ k : Fin 128, x0 (ix2 p k) * x2 (ix2 k q)) = ∑ k : Fin 128, a0 (ix2 r k) * a2 (ix2 k q) :=
    Finset.sum_congr rfl fun k _ => by rw [h0 k, h2 k]
  have s1 : (∑ k : Fin 128, x1 (ix2 p k) * x3 (ix2 k q)) = ∑ k : Fin 128, a1 (ix2 r k) * a3 (ix2 k q) :=
    Finset.sum_congr rfl fun k _ => by rw [h1 k, h3 k]
  rw [pay1_apply, s0, s1, h4]
  rfl

end Cert.KernelIdeal.Pay

end
-- ==== Proof.Blocks.lean ====
/-
  From row blocks to whole arrays.

  Each dense layer runs over a grid of 20 points; point `t` loads rows 5000·t … 5000·t + 4999 of the features and of the
  neighbour means, the weights and the bias whole, and writes rows 5000·t … 5000·t + 4999 of the result.  Entry (p, q) of
  what it writes is entry (5000·t + p, q) of the layer function of the WHOLE arrays (the block reads are the arrays read
  through the block's rectangle), and the 20 row blocks cover the result array, so after the region the result array is
  the layer function of the arrays as the region found them — whatever those contents are (`V`).
-/
import proofs.«169342_j54185307406416_1_alg».proof.Proof.Gen.KernelIdeal.Frame
import proofs.«169342_j54185307406416_1_alg».proof.Proof.Payload
import proofs.«169342_j54185307406416_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

-- the buffer contents a region is entered with: a parameter of everything below
variable (V : (c : Dev nD) → (b : Ref sig .tc) → Buf (Elt Ideal) ((c : Thread nD τ).loc b))

theorem hz : (![0, 0] : Fin 2 → Nat) = fun _ => 0 := funext fun a => by fin_cases a <;> rfl

/-- Row `p` of row block `T` is row 5000·T + p of the array. -/
def rowOf (T : Nat) (hT : T < 20) (p : Fin 5000) : Fin 100000 := ⟨T * 5000 + p.val, by have := p.isLt; omega⟩

/-! ## The first layer's region -/

/-- The block indices over the grid: the two row-blocked inputs and the output are at row block `t`, column block 0;
    the weights and the bias are whole (block 0, 0) at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is one of 20. -/
theorem lt20_0 (t : Fin cfg0.N) : t.val < 20 := by
  have h := t.isLt
  have hN : cfg0.N = 20 := N_0
  omega

/-- WHAT POINT `t` WRITES BACK is block `t` of the layer function of the arrays as the region finds them. -/
theorem flushed0 (c : Dev nD) (t : Fin cfg0.N) :
    (dat0 V c).flushed 5 t = ((cfg0.win 5).blk t).view.read (Elt Ideal)
      (Cert.Sage.layer1 (V c main_arg0) (V c main_v18) (V c main_arg3) (V c main_arg4) (V c main_v19)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx0 t
  have ht := lt20_0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = Cert.Sage.layer1 (V c main_arg0) (V c main_v18) (V c main_arg3) (V c main_arg4) (V c main_v19)
        (((cfg0.win 5).blk t).view.emb (ix2 p q))
  refine (Pay.block_eq0 (iblk0 V c 0 t) (iblk0 V c 1 t) (iblk0 V c 2 t) (iblk0 V c 3 t) (iblk0 V c 4 t)
    (V c main_arg0) (V c main_v18) (V c main_arg3) (V c main_arg4) (V c main_v19) (rowOf t.val ht p) p q ?_ ?_ ?_ ?_ ?_).trans ?_
  · intro k
    show V c main_arg0 (((cfg0.win 0).blk t).view.emb (ix2 p k)) = V c main_arg0 (ix2 (rowOf t.val ht p) k)
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k
    show V c main_v18 (((cfg0.win 1).blk t).view.emb (ix2 p k)) = V c main_v18 (ix2 (rowOf t.val ht p) k)
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  · intro k
    show V c main_arg3 (((cfg0.win 2).blk t).view.emb (ix2 k q)) = V c main_arg3 (ix2 k q)
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · intro k
    show V c main_arg4 (((cfg0.win 3).blk t).view.emb (ix2 k q)) = V c main_arg4 (ix2 k q)
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · show V c main_v19 (((cfg0.win 4).blk t).view.emb (ix2 (0 : Fin 1) q)) = V c main_v19 (ix2 (0 : Fin 1) q)
    refine congrArg _ (funext fun a => Fin.ext ?_)
    match a with
    | ⟨0, _⟩ => show win0_4.index t (0 : Fin 2) * 1 + 1 * 0 = 0; rw [e40]
    | ⟨1, _⟩ => show win0_4.index t (1 : Fin 2) * 128 + 1 * q.val = q.val; rw [e41]; omega
  · refine congrArg _ (funext fun a => Fin.ext ?_)
    match a with
    | ⟨0, _⟩ => show t.val * 5000 + p.val = win0_5.index t (0 : Fin 2) * 5000 + 1 * p.val; rw [e50]; omega
    | ⟨1, _⟩ => show q.val = win0_5.index t (1 : Fin 2) * 128 + 1 * q.val; rw [e51]; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The 20 row blocks cover the result array: row `r` is in block `r / 5000`. -/
theorem cover0 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- THE RESULT ARRAY after the region: the layer function of the arrays as the region finds them. -/
theorem final0 (c : Dev nD) : (dat0 V c).arrAt 5 cfg0.N
    = Cert.Sage.layer1 (V c main_arg0) (V c main_v18) (V c main_arg3) (V c main_arg4) (V c main_v19) :=
  (dat0 V c).arrAt_eq_of_cover 5 _ (fun t _ => flushed0 V c t) (fun i => cover0 i)

/-! ## The second layer's region -/

/-- The block indices over the grid: the two row-blocked inputs and the output are at row block `t`, column block 0;
    the weights and the bias are whole (block 0, 0) at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is one of 20. -/
theorem lt20_1 (t : Fin cfg1.N) : t.val < 20 := by
  have h := t.isLt
  have hN : cfg1.N = 20 := N_1
  omega

/-- WHAT POINT `t` WRITES BACK is block `t` of the layer function of the arrays as the region finds them. -/
theorem flushed1 (c : Dev nD) (t : Fin cfg1.N) :
    (dat1 V c).flushed 5 t = ((cfg1.win 5).blk t).view.read (Elt Ideal)
      (Cert.Sage.layer2 (V c main_v20) (V c main_v39) (V c main_arg6) (V c main_arg7) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx1 t
  have ht := lt20_1 t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = Cert.Sage.layer2 (V c main_v20) (V c main_v39) (V c main_arg6) (V c main_arg7) (V c main_v40)
        (((cfg1.win 5).blk t).view.emb (ix2 p q))
  refine (Pay.block_eq1 (iblk1 V c 0 t) (iblk1 V c 1 t) (iblk1 V c 2 t) (iblk1 V c 3 t) (iblk1 V c 4 t)
    (V c main_v20) (V c main_v39) (V c main_arg6) (V c main_arg7) (V c main_v40) (rowOf t.val ht p) p q ?_ ?_ ?_ ?_ ?_).trans ?_
  · intro k
    show V c main_v20 (((cfg1.win 0).blk t).view.emb (ix2 p k)) = V c main_v20 (ix2 (rowOf t.val ht p) k)
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · intro k
    show V c main_v39 (((cfg1.win 1).blk t).view.emb (ix2 p k)) = V c main_v39 (ix2 (rowOf t.val ht p) k)
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · intro k
    show V c main_arg6 (((cfg1.win 2).blk t).view.emb (ix2 k q)) = V c main_arg6 (ix2 k q)
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 64 + 1 * q.val = q.val; rw [e21]; omega
  · intro k
    show V c main_arg7 (((cfg1.win 3).blk t).view.emb (ix2 k q)) = V c main_arg7 (ix2 k q)
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 64 + 1 * q.val = q.val; rw [e31]; omega
  · show V c main_v40 (((cfg1.win 4).blk t).view.emb (ix2 (0 : Fin 1) q)) = V c main_v40 (ix2 (0 : Fin 1) q)
    refine congrArg _ (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega
  · refine congrArg _ (funext fun a => Fin.ext ?_)
    match a with
    | ⟨0, _⟩ => show t.val * 5000 + p.val = win1_5.index t (0 : Fin 2) * 5000 + 1 * p.val; rw [e50]; omega
    | ⟨1, _⟩ => show q.val = win1_5.index t (1 : Fin 2) * 64 + 1 * q.val; rw [e51]; omega

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- The 20 row blocks cover the result array: row `r` is in block `r / 5000`. -/
theorem cover1 (i : S100000x64.Idx) : ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 64 ≤ (i 1).val ∧ (i 1).val < win1_5.index t (1 : Fin 2) * 64 + 64; rw [e51]; omega

/-- THE RESULT ARRAY after the region: the layer function of the arrays as the region finds them. -/
theorem final1 (c : Dev nD) : (dat1 V c).arrAt 5 cfg1.N
    = Cert.Sage.layer2 (V c main_v20) (V c main_v39) (V c main_arg6) (V c main_arg7) (V c main_v40) :=
  (dat1 V c).arrAt_eq_of_cover 5 _ (fun t _ => flushed1 V c t) (fun i => cover1 i)

end Cert.KernelIdeal.Blocks

end
-- ==== Proof.HostVals.lean ====
/-
  What the host operations leave in the buffers each dense layer reads.

  Before the first layer the host gathers the rows of the features at the edges' sources, adds them up at the edges'
  destinations, divides by the number of incoming edges (at least one), and reshapes the first bias to a 1 × 128 matrix;
  before the second layer it does the same with the first layer's result and the second bias.  The reference applies
  the very same operations, so the neighbour mean is named by the reference's own stage function (`val_main_v18`,
  the mean as a function of a feature array and the two edge arrays) and is never opened.  No host operation writes
  an argument array, and the first layer's region leaves every buffer but its result as it found it.
-/
import proofs.«169342_j54185307406416_1_alg».proof.Proof.Gen.KernelIdeal.Frame
import proofs.«169342_j54185307406416_1_alg».proof.Proof.Gen.ReferenceIdeal.Read
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The neighbour mean of a feature array along the edges: the reference's stage, shared by both programs. -/
abbrev nbrMean := @Cert.ReferenceIdeal.Read.val_main_v18 Ideal _

/-! ## Before the first layer -/

set_option maxHeartbeats 4000000 in
theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
set_option maxHeartbeats 4000000 in
theorem W1_arg1 (c : Dev nD) : W1 m ρ c (Proc.devRef .tc main_arg1) = m ((c.tc : Thread nD τ).loc main_arg1) := by
  show StableHlo.after hostOps0 (W0 m ρ c) (Proc.devRef .tc main_arg1) = _
  after_results_simp <;> rfl
set_option maxHeartbeats 4000000 in
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl
set_option maxHeartbeats 4000000 in
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl
set_option maxHeartbeats 4000000 in
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl
set_option maxHeartbeats 4000000 in
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
set_option maxHeartbeats 4000000 in
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl
set_option maxHeartbeats 4000000 in
theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl

set_option maxHeartbeats 4000000 in
/-- The neighbour mean the first layer reads: of the features, along the edges. -/
theorem W1_v18 (c : Dev nD) : W1 m ρ c (Proc.devRef .tc main_v18)
    = nbrMean (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp
  show _ = Cert.ReferenceIdeal.Read.val_main_v18 (F := Ideal) _ _ _
  unfold Cert.ReferenceIdeal.Read.val_main_v18 Cert.ReferenceIdeal.Read.val_main_v9 Cert.ReferenceIdeal.Read.val_main_v17 Cert.ReferenceIdeal.Read.val_main_v16 Cert.ReferenceIdeal.Read.val_main_v15 Cert.ReferenceIdeal.Read.val_main_v13 Cert.ReferenceIdeal.Read.val_main_v14 Cert.ReferenceIdeal.Read.val_main_v12 Cert.ReferenceIdeal.Read.val_main_v11 Cert.ReferenceIdeal.Read.val_main_v10 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rfl

set_option maxHeartbeats 4000000 in
/-- The first bias as a 1 × 128 matrix. -/
theorem W1_v19 (c : Dev nD) : W1 m ρ c (Proc.devRef .tc main_v19)
    = shapeCast S1x128 (m ((c.tc : Thread nD τ).loc main_arg5)) shapeCasts_S128_S1x128 := by
  show StableHlo.after hostOps0 (W0 m ρ c) (Proc.devRef .tc main_v19) = _
  after_results_simp <;> rfl

/-! ## Between the layers: the first region changes its result array only -/

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)

/-! ## Before the second layer -/

set_option maxHeartbeats 4000000 in
/-- The first layer's result is not touched by the host operations between the layers. -/
theorem W3_v20 (c : Dev nD) : W3 m ρ c (Proc.devRef .tc main_v20) = W2 m ρ c (Proc.devRef .tc main_v20) := by
  show StableHlo.after hostOps1 (W2 m ρ c) (Proc.devRef .tc main_v20) = _
  after_results_simp <;> rfl
set_option maxHeartbeats 4000000 in
theorem W3_arg6 (c : Dev nD) : W3 m ρ c (Proc.devRef .tc main_arg6) = m ((c.tc : Thread nD τ).loc main_arg6) := by
  refine Eq.trans ?_ (W2_arg6 m ρ c)
  show StableHlo.after hostOps1 (W2 m ρ c) (Proc.devRef .tc main_arg6) = _
  after_results_simp <;> rfl
set_option maxHeartbeats 4000000 in
theorem W3_arg7 (c : Dev nD) : W3 m ρ c (Proc.devRef .tc main_arg7) = m ((c.tc : Thread nD τ).loc main_arg7) := by
  refine Eq.trans ?_ (W2_arg7 m ρ c)
  show StableHlo.after hostOps1 (W2 m ρ c) (Proc.devRef .tc main_arg7) = _
  after_results_simp <;> rfl

set_option maxHeartbeats 4000000 in
/-- The neighbour mean the second layer reads: of the first layer's result, along the same edges. -/
theorem W3_v39 (c : Dev nD) : W3 m ρ c (Proc.devRef .tc main_v39)
    = nbrMean (W2 m ρ c (Proc.devRef .tc main_v20)) (m ((c.tc : Thread nD τ).loc main_arg1)) (m ((c.tc : Thread nD τ).loc main_arg2)) := by
  rw [← W2_arg1 m ρ c, ← W2_arg2 m ρ c]
  show StableHlo.after hostOps1 (W2 m ρ c) (Proc.devRef .tc main_v39) = _
  after_results_simp
  show _ = Cert.ReferenceIdeal.Read.val_main_v18 (F := Ideal) _ _ _
  unfold Cert.ReferenceIdeal.Read.val_main_v18 Cert.ReferenceIdeal.Read.val_main_v9 Cert.ReferenceIdeal.Read.val_main_v17 Cert.ReferenceIdeal.Read.val_main_v16 Cert.ReferenceIdeal.Read.val_main_v15 Cert.ReferenceIdeal.Read.val_main_v13 Cert.ReferenceIdeal.Read.val_main_v14 Cert.ReferenceIdeal.Read.val_main_v12 Cert.ReferenceIdeal.Read.val_main_v11 Cert.ReferenceIdeal.Read.val_main_v10 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst Cert.ReferenceIdeal.Read.val_main_cst_1 Cert.ReferenceIdeal.Read.val_main_cst_2 Cert.ReferenceIdeal.Read.val_main_cst_3
  rfl

set_option maxHeartbeats 4000000 in
/-- The second bias as a 1 × 64 matrix. -/
theorem W3_v40 (c : Dev nD) : W3 m ρ c (Proc.devRef .tc main_v40)
    = shapeCast S1x64 (m ((c.tc : Thread nD τ).loc main_arg8)) shapeCasts_S64_S1x64 := by
  rw [← W2_arg8 m ρ c]
  show StableHlo.after hostOps1 (W2 m ρ c) (Proc.devRef .tc main_v40) = _
  after_results_simp <;> rfl

end Cert.KernelIdeal.HostVals

end
-- ==== Proof.KernelValue.lean ====
/-
  The idealized kernel program's result as one function of its nine arguments.

  Write  mean(h)  for the neighbour mean of a feature array `h` along the edges (the host operations both programs share),
  b¹, b² for the two biases as one-row matrices.  Then the first layer's region leaves
      H = layer1 (x, mean(x), W¹ₛ, W¹ₙ, b¹)
  in its result array, and the second layer's region leaves
      layer2 (H, mean(H), W²ₛ, W²ₙ, b²)
  in the program's result array: each region's array is the layer function of the contents it found (the row blocks
  cover the array), and those contents are what the host operations before it computed from the arguments.
-/
import proofs.«169342_j54185307406416_1_alg».proof.Proof.Blocks
import proofs.«169342_j54185307406416_1_alg».proof.Proof.HostVals

set_option maxRecDepth 16384

noncomputable section

namespace Cert.Sage

open Idealize.ShloMosaic

/-- The two-layer network on the extended reals: features `x0`, edge sources `x1` and destinations `x2`, the first
    layer's weights `x3`, `x4` and bias `x5`, the second layer's weights `x6`, `x7` and bias `x8`. -/
def network (x0 : (⟨2, ![100000, 128]⟩ : Shape).Idx → EReal) (x1 x2 : (⟨1, ![640000]⟩ : Shape).Idx → BitVec 32)
    (x3 x4 : (⟨2, ![128, 128]⟩ : Shape).Idx → EReal) (x5 : (⟨1, ![128]⟩ : Shape).Idx → EReal)
    (x6 x7 : (⟨2, ![128, 64]⟩ : Shape).Idx → EReal) (x8 : (⟨1, ![64]⟩ : Shape).Idx → EReal) :
    (⟨2, ![100000, 64]⟩ : Shape).Idx → EReal :=
  layer2
    (layer1 x0 (Cert.KernelIdeal.HostVals.nbrMean x0 x1 x2) x3 x4
      (shapeCast Cert.KernelIdeal.S1x128 x5 Cert.KernelIdeal.Facts₀.shapeCasts_S128_S1x128))
    (Cert.KernelIdeal.HostVals.nbrMean
      (layer1 x0 (Cert.KernelIdeal.HostVals.nbrMean x0 x1 x2) x3 x4
        (shapeCast Cert.KernelIdeal.S1x128 x5 Cert.KernelIdeal.Facts₀.shapeCasts_S128_S1x128)) x1 x2)
    x6 x7 (shapeCast Cert.KernelIdeal.S1x64 x8 Cert.KernelIdeal.Facts₀.shapeCasts_S64_S1x64)

end Cert.Sage

namespace Cert.KernelIdeal.Whole

open Cert.KernelIdeal Cert.KernelIdeal.Gen Cert.KernelIdeal.HostVals
open Idealize.ShloMosaic Idealize.ShloMosaic.TcCoe Idealize.SL.Sem

variable (m : (ℓ : Loc nD τ sig) → Buf (Elt Ideal) ℓ) (ρ : Dev nD → PrngReg)

/-- After the first region its result array is the first layer of the arguments. -/
theorem hidden (c : Dev nD) : W2 m ρ c (Proc.devRef .tc main_v20)
    = Cert.Sage.layer1 (m ((c.tc : Thread Cert.KernelIdeal.nD Cert.KernelIdeal.τ).loc Cert.KernelIdeal.main_arg0)) (nbrMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (shapeCast S1x128 (m ((c.tc : Thread Cert.KernelIdeal.nD Cert.KernelIdeal.τ).loc Cert.KernelIdeal.main_arg5)) shapeCasts_S128_S1x128) := by
  refine (W2_arr m ρ c 5).trans ?_
  rw [Blocks.final0 (V1 m ρ) c]
  show Cert.Sage.layer1 (W1 m ρ c (Proc.devRef .tc main_arg0)) (W1 m ρ c (Proc.devRef .tc main_v18))
    (W1 m ρ c (Proc.devRef .tc main_arg3)) (W1 m ρ c (Proc.devRef .tc main_arg4)) (W1 m ρ c (Proc.devRef .tc main_v19)) = _
  rw [W1_arg0, W1_v18, W1_arg3, W1_arg4, W1_v19]

/-- After the second region the program's result array is the network of the arguments. -/
theorem result (c : Dev nD) : W4 m ρ c (Proc.devRef .tc main_v41)
    = Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  refine (W4_arr m ρ c 5).trans ?_
  rw [Blocks.final1 (V3 m ρ) c]
  show Cert.Sage.layer2 (W3 m ρ c (Proc.devRef .tc main_v20)) (W3 m ρ c (Proc.devRef .tc main_v39))
    (W3 m ρ c (Proc.devRef .tc main_arg6)) (W3 m ρ c (Proc.devRef .tc main_arg7)) (W3 m ρ c (Proc.devRef .tc main_v40)) = _
  rw [W3_v20, W3_v39, W3_arg6, W3_arg7, W3_v40, hidden]
  rfl

end Cert.KernelIdeal.Whole

end
-- ==== Proof.RefLayers.lean ====
/-
  The reference, stage by stage, is the two layer functions.

  The reference's first layer is two `dot_general`s (plain sums of products over the 128 contracted coordinates on the
  extended reals), their sum, the bias broadcast over the rows, and a maximum with the broadcast zero; its second layer
  is the same without the maximum.  Read at an entry (r, q) these are exactly the layer functions of the feature array,
  its neighbour mean, the weights and the bias written as a 1 × columns matrix.  The second layer's neighbour mean is the
  first layer's neighbour-mean stage applied to the first layer's result: the same operations in the same order.
-/
import proofs.«169342_j54185307406416_1_alg».proof.Proof.Gen.ReferenceIdeal.Read
import proofs.«169342_j54185307406416_1_alg».proof.Proof.Spec
import Idealize.ShloMosaic.Lib.Pipeline.Value
import Idealize.ShloMosaic.Lib.ValueIdx

set_option maxRecDepth 16384

noncomputable section

namespace Cert.ReferenceIdeal.Layers

open Cert.ReferenceIdeal Cert.ReferenceIdeal.Gen Cert.ReferenceIdeal.Read
open Idealize.ShloMosaic Idealize.ShloMosaic.ValueIdx

/-- A bias vector reshaped to a one-row matrix reads, in row 0 and column `q`, the vector's entry `q`. -/
theorem row_of_vec {n : Nat} (b : (⟨1, ![n]⟩ : Shape).Idx → EReal) (h : (⟨1, ![n]⟩ : Shape).ShapeCasts ⟨2, ![1, n]⟩) (q : Fin n) :
    shapeCast (⟨2, ![1, n]⟩ : Shape) b h (ix2 (0 : Fin 1) q) = b (ix1 q) := by
  refine (shapeCast_addUnit_apply ![n] b h (ix2 (0 : Fin 1) q)).trans (congrArg b (funext fun a => ?_))
  match a with
  | ⟨0, _⟩ => rfl

/-- THE FIRST LAYER: the reference's clamped stage is the layer function of the features, their neighbour mean, the
    two weight matrices and the bias row. -/
theorem layer1_eq (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (h : S128.ShapeCasts S1x128) :
    val_main_v25 (F := Ideal) x0 x1 x2 x3 x4 x5
      = Cert.Sage.layer1 x0 (val_main_v18 (F := Ideal) x0 x1 x2) x3 x4 (shapeCast S1x128 x5 h) := by
  funext i
  obtain ⟨r, q, rfl⟩ : ∃ (r : Fin 100000) (q : Fin 128), i = ix2 r q := ⟨i 0, i 1, eq_ix2 i⟩
  have el19 : ∀ k : Fin 128, lidx_main_v19 (ix2 r q) k = ix2 r k := fun k => funext fun a => Fin.ext (by
    match a with | ⟨0, _⟩ => rfl | ⟨1, _⟩ => rfl)
  have er19 : ∀ k : Fin 128, ridx_main_v19 (ix2 r q) k = ix2 k q := fun k => funext fun a => Fin.ext (by
    match a with | ⟨0, _⟩ => rfl | ⟨1, _⟩ => rfl)
  have el20 : ∀ k : Fin 128, lidx_main_v20 (ix2 r q) k = ix2 r k := fun k => funext fun a => Fin.ext (by
    match a with | ⟨0, _⟩ => rfl | ⟨1, _⟩ => rfl)
  have er20 : ∀ k : Fin 128, ridx_main_v20 (ix2 r q) k = ix2 k q := fun k => funext fun a => Fin.ext (by
    match a with | ⟨0, _⟩ => rfl | ⟨1, _⟩ => rfl)
  have eb : idx_main_v22 (idx_main_v23 (ix2 r q)) = ix1 q := funext fun a => Fin.ext (by
    match a with | ⟨0, _⟩ => rfl)
  have hb : shapeCast S1x128 x5 h (ix2 (0 : Fin 1) q) = x5 (ix1 q) := row_of_vec x5 h q
  rw [val_main_v25_apply, val_main_v24_apply, val_main_v21_apply, val_main_v19_apply, val_main_v20_apply,
    val_main_v23_apply, val_main_v22_apply, val_main_call0_v0_apply, val_main_call0_cst_apply]
  show max ((∑ k : Fin 128, x0 (lidx_main_v19 (ix2 r q) k) * x3 (ridx_main_v19 (ix2 r q) k))
        + (∑ k : Fin 128, val_main_v18 (F := Ideal) x0 x1 x2 (lidx_main_v20 (ix2 r q) k) * x4 (ridx_main_v20 (ix2 r q) k))
        + x5 (idx_main_v22 (idx_main_v23 (ix2 r q)))) (Ideal.ofBits .f32 0x00000000#32)
    = max ((∑ k : Fin 128, x0 (ix2 r k) * x3 (ix2 k q))
        + (∑ k : Fin 128, val_main_v18 (F := Ideal) x0 x1 x2 (ix2 r k) * x4 (ix2 k q))
        + shapeCast S1x128 x5 h (ix2 (0 : Fin 1) q)) (Ideal.ofBits .f32 0x00000000#32)
  rw [hb, eb]
  simp only [el19, er19, el20, er20]

/-- The second layer's neighbour mean is the neighbour-mean stage applied to the first layer's result. -/
theorem mean2_eq (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) :
    val_main_v44 (F := Ideal) x0 x1 x2 x3 x4 x5 = val_main_v18 (F := Ideal) (val_main_v25 (F := Ideal) x0 x1 x2 x3 x4 x5) x1 x2 := by
  generalize hH : val_main_v25 (F := Ideal) x0 x1 x2 x3 x4 x5 = H
  unfold val_main_v44 val_main_v35 val_main_v32 val_main_v43 val_main_v42 val_main_v41 val_main_v40 val_main_v39 val_main_v38
    val_main_v37 val_main_v36 val_main_v34 val_main_v33 val_main_v31 val_main_v30 val_main_v29 val_main_v28 val_main_v27 val_main_v26
    val_main_cst_6 val_main_cst_7 val_main_cst_8 val_main_cst_9 val_main_c_4 val_main_c_5
  rw [hH]
  rfl

/-- THE SECOND LAYER: the reference's result is the layer function of the first layer's result, its neighbour mean, the
    two weight matrices and the bias row. -/
theorem layer2_eq (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x64, .f32⟩ : BufTy).Contents (Elt Ideal)) (x8 : (⟨S64, .f32⟩ : BufTy).Contents (Elt Ideal))
    (h : S64.ShapeCasts S1x64) :
    val_main_v50 (F := Ideal) x0 x1 x2 x3 x4 x5 x6 x7 x8
      = Cert.Sage.layer2 (val_main_v25 (F := Ideal) x0 x1 x2 x3 x4 x5) (val_main_v44 (F := Ideal) x0 x1 x2 x3 x4 x5) x6 x7 (shapeCast S1x64 x8 h) := by
  funext i
  obtain ⟨r, q, rfl⟩ : ∃ (r : Fin 100000) (q : Fin 64), i = ix2 r q := ⟨i 0, i 1, eq_ix2 i⟩
  have el45 : ∀ k : Fin 128, lidx_main_v45 (ix2 r q) k = ix2 r k := fun k => funext fun a => Fin.ext (by
    match a with | ⟨0, _⟩ => rfl | ⟨1, _⟩ => rfl)
  have er45 : ∀ k : Fin 128, ridx_main_v45 (ix2 r q) k = ix2 k q := fun k => funext fun a => Fin.ext (by
    match a with | ⟨0, _⟩ => rfl | ⟨1, _⟩ => rfl)
  have el46 : ∀ k : Fin 128, lidx_main_v46 (ix2 r q) k = ix2 r k := fun k => funext fun a => Fin.ext (by
    match a with | ⟨0, _⟩ => rfl | ⟨1, _⟩ => rfl)
  have er46 : ∀ k : Fin 128, ridx_main_v46 (ix2 r q) k = ix2 k q := fun k => funext fun a => Fin.ext (by
    match a with | ⟨0, _⟩ => rfl | ⟨1, _⟩ => rfl)
  have eb : idx_main_v48 (idx_main_v49 (ix2 r q)) = ix1 q := funext fun a => Fin.ext (by
    match a with | ⟨0, _⟩ => rfl)
  have hb : shapeCast S1x64 x8 h (ix2 (0 : Fin 1) q) = x8 (ix1 q) := row_of_vec x8 h q
  rw [val_main_v50_apply, val_main_v47_apply, val_main_v45_apply, val_main_v46_apply, val_main_v49_apply, val_main_v48_apply]
  show (∑ k : Fin 128, val_main_v25 (F := Ideal) x0 x1 x2 x3 x4 x5 (lidx_main_v45 (ix2 r q) k) * x6 (ridx_main_v45 (ix2 r q) k))
        + (∑ k : Fin 128, val_main_v44 (F := Ideal) x0 x1 x2 x3 x4 x5 (lidx_main_v46 (ix2 r q) k) * x7 (ridx_main_v46 (ix2 r q) k))
        + x8 (idx_main_v48 (idx_main_v49 (ix2 r q)))
    = (∑ k : Fin 128, val_main_v25 (F := Ideal) x0 x1 x2 x3 x4 x5 (ix2 r k) * x6 (ix2 k q))
        + (∑ k : Fin 128, val_main_v44 (F := Ideal) x0 x1 x2 x3 x4 x5 (ix2 r k) * x7 (ix2 k q))
        + shapeCast S1x64 x8 h (ix2 (0 : Fin 1) q)
  rw [hb, eb]
  simp only [el45, er45, el46, er46]

end Cert.ReferenceIdeal.Layers

end
-- ==== Proof.lean ====
/-
  A two-layer graph network, as a tiled kernel program and as its plain reference, computes one function on the
  extended reals.

  Each layer is   h · Wₛ + mean(h) · Wₙ + b   (clamped below at zero after the first layer), where mean(h) is the mean of
  the rows of `h` over each node's incoming edges: rows gathered at the edges' sources, added up at their destinations,
  divided by the number of incoming edges or by one.  The kernel program computes mean(·) on the host with the very
  operations the reference uses, and the affine part in a kernel over 20 blocks of 5000 rows; the reference computes
  the affine part with two whole matrix products.

  Nothing in the comparison needs the inputs finite.  Narrowing an operand to bf16 is the identity on the extended
  reals; a matrix product into the zero accumulator is  0 + Σₖ lₖ·rₖ = Σₖ lₖ·rₖ ; a row block of the whole product is the
  product of the row block; and the neighbour mean is the same term on both sides, never opened.  So both result
  arrays are `Cert.Sage.network` of the nine arguments:

  * the kernel program (`Cert.KernelIdeal.Whole.run`, `Cert.KernelIdeal.Whole.result`): the run names the result array
    as the last boundary's contents; those are the second layer function of what the first region and the host
    operations left, and so on back to the arguments;
  * the reference (`reference_result`): its run's term, read stage by stage, is the same two layer functions
    (`Cert.ReferenceIdeal.Layers`).

  The three frames are the programs' runs with the result dropped; the idealization rewrote nothing, so it preserves
  the kernel trivially.
-/
import proofs.«169342_j54185307406416_1_alg».proof.Defs
import proofs.«169342_j54185307406416_1_alg».proof.Proof.Gen.Kernel
import proofs.«169342_j54185307406416_1_alg».proof.Proof.Gen.Kernel.Frame
import proofs.«169342_j54185307406416_1_alg».proof.Proof.Gen.KernelIdeal
import proofs.«169342_j54185307406416_1_alg».proof.Proof.Gen.KernelIdeal.Frame
import proofs.«169342_j54185307406416_1_alg».proof.Proof.Gen.ReferenceIdeal
import proofs.«169342_j54185307406416_1_alg».proof.Proof.Gen.ReferenceIdeal.Run
import proofs.«169342_j54185307406416_1_alg».proof.Proof.Gen.ReferenceIdeal.Read
import proofs.«169342_j54185307406416_1_alg».proof.Proof.Gen.Pre_finite_inputs
import proofs.«169342_j54185307406416_1_alg».proof.Proof.KernelRun
import proofs.«169342_j54185307406416_1_alg».proof.Proof.KernelValue
import proofs.«169342_j54185307406416_1_alg».proof.Proof.RefLayers

set_option maxRecDepth 16384

noncomputable section

namespace Cert.Proof

open Idealize.ShloMosaic Idealize.ShloMosaic.TcCoe Idealize.SL.Sem

/-- The reference's result term is the network of its arguments: its last stage is the second layer function of the
    first layer's result and that result's neighbour mean, and the first layer's result is the first layer function
    of the features and their neighbour mean. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v50 m' c
      = Cert.Sage.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  rw [Cert.ReferenceIdeal.Read.val_main_v50_eq,
    Cert.ReferenceIdeal.Layers.layer2_eq _ _ _ _ _ _ _ _ _ Cert.KernelIdeal.Facts₀.shapeCasts_S64_S1x64,
    Cert.ReferenceIdeal.Layers.mean2_eq,
    Cert.ReferenceIdeal.Layers.layer1_eq _ _ _ _ _ _ Cert.KernelIdeal.Facts₀.shapeCasts_S128_S1x128]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs run to the end, and both result arrays are the
    network of those arguments. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Whole.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [reference_result m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
